-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S2048x768 : Shape := ⟨2, ![2048, 768]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S2048x768 : S_.BroadcastsInDim S2048x768 (![] : Fin 0 → Fin S2048x768.rank)
  reducesTo_S2048x768_S_d0_1 : S2048x768.ReducesTo [0, 1] S_

variable [Facts]

def fn {F : FTy → Type} [FloatOps F] (main_arg0 : FVec F S32x512x768 .f32) (main_arg1 : FVec F S2048x768 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  main_v8
-- ==== Kernel.lean ====
abbrev S32x512x768 : Shape := ⟨3, ![32, 512, 768]⟩
abbrev S2048x768 : Shape := ⟨2, ![2048, 768]⟩
abbrev S32x2048 : Shape := ⟨2, ![32, 2048]⟩
abbrev S8x256x768 : Shape := ⟨3, ![8, 256, 768]⟩
abbrev S8x2048 : Shape := ⟨2, ![8, 2048]⟩
abbrev S8x768 : Shape := ⟨2, ![8, 768]⟩
abbrev S8x256 : Shape := ⟨2, ![8, 256]⟩
abbrev S8x256x1 : Shape := ⟨3, ![8, 256, 1]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S32x512x768, .f32⟩
  | .hbm, ⟨1, _⟩ => ⟨S2048x768, .f32⟩
  | .hbm, ⟨2, _⟩ => ⟨S32x2048, .f32⟩
  | .local _ .vmem, ⟨0, _⟩ => ⟨S8x256x768, .f32⟩
  | .local _ .vmem, ⟨1, _⟩ => ⟨S8x256x768, .f32⟩
  | .local _ .vmem, ⟨2, _⟩ => ⟨S2048x768, .f32⟩
  | .local _ .vmem, ⟨3, _⟩ => ⟨S8x2048, .f32⟩
  | .local _ .vmem, ⟨4, _⟩ => ⟨S8x2048, .f32⟩
  | .local _ .vmem, ⟨5, _⟩ => ⟨S8x768, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_9 : BitVec 32 := 0#32
  let v20 : BitVec 1 := Scalar.cmpi .ne v19 c0_i32_9
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x768_S8x768_0_0 : ∀ a, (![0, 0] : Fin 2 → Nat) a + S8x768.size a ≤ S8x768.size a
  h_S8x768 : 0 < S8x768.numel
  shapeCasts_S8x768_S8x768 : S8x768.ShapeCasts S8x768
  inb_S8x256x768_S8x256x768_0_0_0 : ∀ a, (![0, 0, 0] : Fin 3 → Nat) a + S8x256x768.size a ≤ S8x256x768.size a
  h_S8x256x768 : 0 < S8x256x768.numel
  reduces_S8x256x768_S8x256 : S8x256x768.Reduces [2] S8x256
  shapeCasts_S8x256_S8x256x1 : S8x256.ShapeCasts S8x256x1
  broadcasts_S8x256x1_S8x256x768 : S8x256x1.Broadcasts S8x256x768
  reduces_S8x256x768_S8x768 : S8x256x768.Reduces [1] S8x768
  inb_S2048x768_S2048x768_0_0 : ∀ a, (![0, 0] : Fin 2 → Nat) a + S2048x768.size a ≤ S2048x768.size a
  h_S2048x768 : 0 < S2048x768.numel
  reduces_S2048x768_S2048 : S2048x768.Reduces [1] S2048
  shapeCasts_S2048_S2048x1 : S2048.ShapeCasts S2048x1
  broadcasts_S2048x1_S2048x768 : S2048x1.Broadcasts S2048x768
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  dot_S8x768_S2048x768_S8x2048_1_1_0_0_n_n_wf : DotDims.WF S8x768 S2048x768 S8x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x768.size a ≤ S32x512x768.size a
  hwx0_0 : ∀ i : grid0.Coords, EltTy.bits .f32 = 32 ∨ (Rect.block (s := S32x512x768) S8x256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S2048x768.size a
  hwx0_1 : ∀ i : grid0.Coords, EltTy.bits .f32 = 32 ∨ (Rect.block (s := S2048x768) S2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S32x2048.size a
  hwx0_2 : ∀ i : grid0.Coords, EltTy.bits .f32 = 32 ∨ (Rect.block (s := S32x2048) S8x2048.size (cc0_transform_2 i) (hinb0_2 i)).WholeWords (EltTy.packing .f32)

variable [Facts₀]

def dot_S8x768_S2048x768_S8x2048_1_1_0_0_n_n : DotDims S8x768 S2048x768 S8x2048 where
  lhsContracting := [1]
  rhsContracting := [1]
  lhsNonContracting := [0]
  rhsNonContracting := [0]
  lhsBatch := []
  rhsBatch := []
  wf := dot_S8x768_S2048x768_S8x2048_1_1_0_0_n_n_wf

abbrev win0_0 : Pipeline.Window sig grid0 :=
  Pipeline.Window.ofSpec (Memref.whole main_arg0) S8x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x512x768 : Shape := ⟨3, ![32, 512, 768]⟩
abbrev S2048x768 : Shape := ⟨2, ![2048, 768]⟩
abbrev S_ : Shape := ⟨0, ![]⟩
abbrev S32x512 : Shape := ⟨2, ![32, 512]⟩
abbrev S32x512x1 : Shape := ⟨3, ![32, 512, 1]⟩
abbrev S2048 : Shape := ⟨1, ![2048]⟩
abbrev S2048x1 : Shape := ⟨2, ![2048, 1]⟩
abbrev S32x512x2048 : Shape := ⟨3, ![32, 512, 2048]⟩
abbrev S32x2048 : Shape := ⟨2, ![32, 2048]⟩

abbrev nBuf : Space → Nat
  | .hbm => 28
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S2048x768, .f32⟩
  | .hbm, ⟨2, _⟩ => ⟨S32x512x768, .f32⟩
  | .hbm, ⟨3, _⟩ => ⟨S_, .f32⟩
  | .hbm, ⟨4, _⟩ => ⟨S32x512, .f32⟩
  | .hbm, ⟨5, _⟩ => ⟨S32x512x1, .f32⟩
  | .hbm, ⟨6, _⟩ => ⟨S32x512x1, .f32⟩
  | .hbm, ⟨7, _⟩ => ⟨S_, .f32⟩
  | .hbm, ⟨8, _⟩ => ⟨S32x512x1, .f32⟩
  | .hbm, ⟨9, _⟩ => ⟨S32x512x1, .f32⟩
  | .hbm, ⟨10, _⟩ => ⟨S2048x768, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S32x512x768, .f32⟩
  | .hbm, ⟨19, _⟩ => ⟨S32x512x768, .f32⟩
  | .hbm, ⟨20, _⟩ => ⟨S2048x768, .f32⟩
  | .hbm, ⟨21, _⟩ => ⟨S2048x768, .f32⟩
  | .hbm, ⟨22, _⟩ => ⟨S32x512x2048, .f32⟩
  | .hbm, ⟨23, _⟩ => ⟨S_, .f32⟩
  | .hbm, ⟨24, _⟩ => ⟨S32x2048, .f32⟩
  | .hbm, ⟨25, _⟩ => ⟨S_, .f32⟩
  | .hbm, ⟨26, _⟩ => ⟨S32x2048, .f32⟩
  | .hbm, ⟨27, _⟩ => ⟨S32x2048, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]

class Facts₀ : Prop where
  reducesTo_S32x512x768_S32x512_d2 : S32x512x768.ReducesTo [2] S32x512
  h_S_ : 0 < S_.numel
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  reducesTo_S2048x768_S2048_d1 : S2048x768.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S32x512x1_S32x512x768_0_1_2 : S32x512x1.BroadcastsInDim S32x512x768 (![0, 1, 2] : Fin 3 → Fin S32x512x768.rank)
  bcast_S2048x1_S2048x768_0_1 : S2048x1.BroadcastsInDim S2048x768 (![0, 1] : Fin 2 → Fin S2048x768.rank)
  reducesTo_S32x512x2048_S32x2048_d1 : S32x512x2048.ReducesTo [1] S32x2048
  bcast_S_S32x2048 : S_.BroadcastsInDim S32x2048 (![] : Fin 0 → Fin S32x2048.rank)
  dot_S32x512x768_S2048x768_S32x512x2048_2_1_01_0_n_n_wf : DotDims.WF S32x512x768 S2048x768 S32x512x2048 [2] [1] [0, 1] [0] [] []

variable [Facts₀]

def dot_S32x512x768_S2048x768_S32x512x2048_2_1_01_0_n_n : DotDims S32x512x768 S2048x768 S32x512x2048 where
  lhsContracting := [2]
  rhsContracting := [1]
  lhsNonContracting := [0, 1]
  rhsNonContracting := [0]
  lhsBatch := []
  rhsBatch := []
  wf := dot_S32x512x768_S2048x768_S32x512x2048_2_1_01_0_n_n_wf

class Facts : Prop extends Facts₀ where

variable [Facts]
-- ==== Proof.Spec.lean ====
/-
  The mathematics of the mean cosine similarity, free of any program.

  For a row `v` of extended reals, `nrm v = max (sqrt (Σ_k v_k²)) ε` is its clamped Euclidean norm (ε the float
  9.99999993e-9) and `unit v k = v_k / nrm v` the row scaled to (at most) unit length. For 512 token rows `X s` of one
  sentence and one projection row `Q`:

    refVal X Q = (Σ_s Σ_d unit (X s) d · unit Q d) / 512        -- every token's cosine with the row, then the mean
    kerVal X Q = Σ_d ((Σ_{s<256} unit (X s) d + Σ_{256≤s} unit (X s) d) · (1/512)) · unit Q d
                                                                -- the mean of the unit token rows first, in two halves,
                                                                   then ONE dot product with the unit row

  They agree whenever every entry is a real number (`ker_eq_ref`): the unit rows are then real (a norm clamped below by
  ε > 0 never vanishes, so each quotient is a real quotient), and over ℝ the dot product is linear in its first argument,
  sums commute, and dividing by 512 is multiplying by the float 1/512 = 2⁻⁹ exactly. At an infinite entry the two forms may
  differ (the extended reals do not distribute), which is why finiteness of the inputs is used.
-/
import Idealize.ShloMosaic.PureOps.Ideal
import Idealize.ShloMosaic.PureOps.Ideal.Laws
import Idealize.ShloMosaic.Lib.ValueIdx

noncomputable section

namespace Cert.CosineMean

open Idealize.ShloMosaic Idealize.ShloMosaic.ValueIdx

/-- The clamped Euclidean norm of a row. -/
def nrm {n : ℕ} (v : Fin n → EReal) : EReal :=
  max (Ideal.sqrt (∑ k, v k * v k)) (Ideal.ofBits .f32 0x322BCC77#32)

/-- The row divided by its clamped norm, at one coordinate. -/
def unit {n : ℕ} (v : Fin n → EReal) (k : Fin n) : EReal := Ideal.div (v k) (nrm v)

/-- The reference's value: the mean over the 512 tokens of the cosines. -/
def refVal (X : Fin 512 → Fin 768 → EReal) (Q : Fin 768 → EReal) : EReal :=
  Ideal.div (∑ s, ∑ d, unit (X s) d * unit Q d) (Ideal.ofBits .f32 0x44000000#32)

/-- The kernel's value: the unit token rows summed in two halves of 256, scaled by the float 1/512, then one dot product. -/
def kerVal (X : Fin 512 → Fin 768 → EReal) (Q : Fin 768 → EReal) : EReal :=
  ∑ d, ((∑ s : Fin 256, unit (X (Fin.castAdd 256 s)) d) + ∑ s : Fin 256, unit (X (Fin.natAdd 256 s)) d)
    * Ideal.ofBits .f32 0x3B000000#32 * unit Q d

/-- THE RESULT as one function of the two argument arrays: entry (b, o) is the mean over sentence b's 512 tokens of the
    cosine between the token's embedding and projection row o. Both programs are shown to end at this array. -/
def meanCos (x : (⟨3, ![32, 512, 768]⟩ : Shape).Idx → EReal) (p : (⟨2, ![2048, 768]⟩ : Shape).Idx → EReal) :
    (⟨2, ![32, 2048]⟩ : Shape).Idx → EReal :=
  fun j => refVal (fun s d => x (ix3 (j 0) s d)) (fun d => p (ix2 (j 1) d))

/-- A finite sum of reals, taken in the extended reals, is the real sum. -/
theorem coe_sum {ι : Type*} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The clamp ε is a positive real. -/
theorem eps_pos : ∃ e : ℝ, 0 < e ∧ Ideal.ofBits .f32 0x322BCC77#32 = (e : EReal) := by
  refine ⟨_, ?_, by simp [Ideal.ofBits, Ideal.ieee, -EReal.coe_mul]; rfl⟩
  positivity

/-- The scale the kernel multiplies by is exactly 1/512, -/
theorem scale_eq : Ideal.ofBits .f32 0x3B000000#32 = ((1 / 512 : ℝ) : EReal) := by
  simp [Ideal.ofBits, Ideal.ieee, -EReal.coe_mul]; norm_num

/-- and the reference's divisor exactly 512. -/
theorem count_eq : Ideal.ofBits .f32 0x44000000#32 = ((512 : ℝ) : EReal) := by
  simp [Ideal.ofBits, Ideal.ieee, -EReal.coe_mul]; norm_num

/-- A real row's unit row is real: its squares sum to a nonnegative real, whose root clamped below by ε is a positive real. -/
theorem unit_coe {n : ℕ} (v : Fin n → ℝ) : ∃ u : Fin n → ℝ, ∀ k, unit (fun k => ((v k : ℝ) : EReal)) k = ((u k : ℝ) : EReal) := by
  obtain ⟨e, he, hε⟩ := eps_pos
  have h0 : (0 : ℝ) ≤ ∑ k, v k * v k := Finset.sum_nonneg fun k _ => mul_self_nonneg (v k)
  have hn : nrm (fun k => ((v k : ℝ) : EReal)) = ((max (Real.sqrt (∑ k, v k * v k)) e : ℝ) : EReal) := by
    unfold nrm
    simp only [← EReal.coe_mul]
    rw [coe_sum, Ideal.sqrt_coe, if_neg (not_lt.mpr h0), hε]
    exact (EReal.coe_strictMono.monotone.map_max).symm
  have hpos : (max (Real.sqrt (∑ k, v k * v k)) e : ℝ) ≠ 0 := ne_of_gt (lt_of_lt_of_le he (le_max_right _ _))
  refine ⟨fun k => v k * (1 / max (Real.sqrt (∑ k, v k * v k)) e), fun k => ?_⟩
  unfold unit
  rw [hn, Ideal.div_coe hpos, ← EReal.coe_mul]

/-- THE LAW. On real entries the kernel's form and the reference's form are one number. -/
theorem ker_eq_ref (X : Fin 512 → Fin 768 → EReal) (Q : Fin 768 → EReal)
    (hX : ∀ s d, ∃ r : ℝ, X s d = (r : EReal)) (hQ : ∀ d, ∃ r : ℝ, Q d = (r : EReal)) : kerVal X Q = refVal X Q := by
  choose xr hxr using hX
  choose qr hqr using hQ
  obtain rfl : X = fun s d => ((xr s d : ℝ) : EReal) := funext fun s => funext fun d => hxr s d
  obtain rfl : Q = fun d => ((qr d : ℝ) : EReal) := funext hqr
  choose ux hux using fun s => unit_coe (xr s)
  obtain ⟨uq, huq⟩ := unit_coe qr
  have h512 : ∀ f : Fin 512 → ℝ, ∑ s, f s = ∑ s : Fin 256, f (Fin.castAdd 256 s) + ∑ s : Fin 256, f (Fin.natAdd 256 s) :=
    fun f => Fin.sum_univ_add (M := ℝ) (a := 256) (b := 256) f
  unfold kerVal refVal
  simp only [hux, huq, scale_eq, count_eq, coe_sum, ← EReal.coe_add, ← EReal.coe_mul]
  rw [Ideal.div_coe (by norm_num : (512 : ℝ) ≠ 0), ← EReal.coe_mul, EReal.coe_eq_coe_iff]
  rw [Finset.sum_comm, Finset.sum_mul]
  refine Finset.sum_congr rfl fun d _ => ?_
  rw [← Finset.sum_mul, h512]
  ring

end Cert.CosineMean

end
-- ==== Proof.Finite.lean ====
/-
  Finite inputs are real numbers.

  The precondition is one bit: the conjunction, over every entry of both arguments, of |x| < +∞. A conjunction that is true
  has every conjunct true, and an extended real whose absolute value lies strictly below +∞ is neither infinity: it is a
  real number.
-/
import proofs.«167580_j25778393711209_2_alg».proof.Pre_finite_inputs
import proofs.«167580_j25778393711209_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

/-- The rank-0 shape has one index. -/
instance : Subsingleton S_.Idx := ⟨fun a b => funext fun d => d.elim0⟩

/-- An extended real with |x| < +∞ (as the comparison's bit) is a real number. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have hinf : Ideal.ofBits .f32 0x7F800000#32 = ⊤ := by simp [Ideal.ofBits, Ideal.ieee]
  rw [Ideal.cmpf_def, Ideal.hostAbsf_def, Ideal.absf_def, hinf] at h
  induction x using EReal.rec with
  | bot => simp [Ideal.cmp] at h
  | coe r => exact ⟨r, rfl⟩
  | top => simp [Ideal.cmp] at h

/-- If the precondition's bit is 1, every entry of both arguments is a real number. -/
theorem real_of_pre (x0 : FVec Ideal S32x512x768 .f32) (x1 : FVec Ideal S2048x768 .f32)
    (h : fn (F := Ideal) x0 x1 = fun _ => 1#1) :
    (∀ i, ∃ r : ℝ, x0 i = (r : EReal)) ∧ (∀ i, ∃ r : ℝ, x1 i = (r : EReal)) := by
  have h' := congrFun h ValueIdx.ix0
  dsimp only [fn] at h'
  obtain ⟨ha, hb⟩ := IntOp.andi_eq_one.mp h'
  refine ⟨fun i => real_of_abs_lt_inf _ ?_, fun i => real_of_abs_lt_inf _ ?_⟩
  · exact Host.reduce_andi_all _ _ _ _ _ ha i
  · exact Host.reduce_andi_all _ _ _ _ _ hb i

end Cert.Pre_finite_inputs.Finite

end
-- ==== Proof.RefValue.lean ====
/-
  The reference's result is the mean cosine array.

  Read one operation at a time, the reference divides each token row by its clamped norm (a sum of squares from the zero,
  its root, the maximum with ε, broadcast back over the row), does the same to each projection row, contracts the feature
  axis for every (sentence, token, projection row), sums the 512 tokens from the zero and divides by 512. At entry (b, o)
  that is `refVal` of sentence b's token rows and projection row o, by unfolding; the zero a sum starts from is 0.
-/
import proofs.«167580_j25778393711209_2_alg».proof.Proof.Gen.ReferenceIdeal.Read
import proofs.«167580_j25778393711209_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.CosineMean

theorem ref_eq_meanCos (x0 : (⟨S32x512x768, .f32⟩ : BufTy).Contents (Elt Ideal)) (x1 : (⟨S2048x768, .f32⟩ : BufTy).Contents (Elt Ideal)) :
    val_main_v13 (F := Ideal) x0 x1 = meanCos x0 x1 := by
  funext j
  obtain ⟨b, o, rfl⟩ : ∃ (b : Fin 32) (o : Fin 2048), j = ix2 b o := ⟨j 0, j 1, eq_ix2 j⟩
  have e1 : ∀ (s : Fin 512) (d : Fin 768), lidx_main_v10 (idx_main_v11 (ix2 b o) s) d = ix3 b s d := fun s d =>
    funext fun a => Fin.ext (by match a with | ⟨0, _⟩ => rfl | ⟨1, _⟩ => rfl | ⟨2, _⟩ => rfl)
  have e2 : ∀ (s : Fin 512) (d : Fin 768), ridx_main_v10 (idx_main_v11 (ix2 b o) s) d = ix2 o d := fun s d =>
    funext fun a => Fin.ext (by match a with | ⟨0, _⟩ => rfl | ⟨1, _⟩ => rfl)
  have e3 : ∀ (s : Fin 512) (d k : Fin 768), idx_main_call0_v1 (idx_main_call0_v2 (idx_main_v6 (ix3 b s d))) k = ix3 b s k := fun s d k =>
    funext fun a => Fin.ext (by match a with | ⟨0, _⟩ => rfl | ⟨1, _⟩ => rfl | ⟨2, _⟩ => rfl)
  have e4 : ∀ (d k : Fin 768), idx_main_call1_v1 (idx_main_call1_v2 (idx_main_v8 (ix2 o d))) k = ix2 o k := fun d k =>
    funext fun a => Fin.ext (by match a with | ⟨0, _⟩ => rfl | ⟨1, _⟩ => rfl)
  rw [val_main_v13_apply, val_main_v11_apply, val_main_v12_apply]
  simp only [val_main_v10_apply, val_main_v7_apply, val_main_v9_apply, val_main_v6_apply, val_main_v8_apply,
    val_main_v2_apply, val_main_v5_apply, val_main_v0_apply, val_main_v3_apply, val_main_v1_apply, val_main_v4_apply,
    val_main_call0_v2_apply, val_main_call1_v2_apply, val_main_call0_v1_apply, val_main_call1_v1_apply,
    val_main_call0_v0_apply, val_main_call1_v0_apply, val_main_cst_apply, val_main_cst_0_apply, val_main_cst_1_apply,
    val_main_cst_2_apply, val_main_call0_cst_apply, val_main_call1_cst_apply, e1, e2, e3, e4,
    Ideal.hostDivf_def, Ideal.hostUnary_sqrt_def, Ideal.maximumf_def, Ideal.mulf_def, Ideal.ofBits_def,
    Ideal.ofBits_zero_f32, zero_add]
  rfl

end Cert.ReferenceIdeal.RefValue

end
-- ==== Proof.Pieces.lean ====
/-
  What one grid point of the fused kernel leaves behind, as values.

  The grid is 4 x 2: the first coordinate picks a block of 8 sentences, the second a block of 256 of a sentence's 512 tokens.
  A scratch of shape [8, 768] is carried between the two token blocks of a sentence block. At the first token block the
  body zeroes the scratch and then adds, to what it now holds, the sum over the block's 256 tokens of the normalized token
  rows; at the second token block it adds the second 256 tokens' sum to what the first left, and then stores, as the output
  block, the product of (scratch · 1/512) with the transposed row-normalized projection. Each statement below reads the
  covering store of one case back as the payload of that store, applied to the blocks the point was handed.
-/
import proofs.«167580_j25778393711209_2_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]

/-- The zero offsets of a rank-2 and of a rank-3 load or store, as functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- First token block: the scratch ends at the zero block plus the block's token sum, `0 + Σ_s xn(s)`. -/
theorem scratch_A (c : Dev nD) (i : grid0.Coords) (arg2 : Memref sig .tc .vmem S8x256x768 .f32) (harg2 : arg2.IsWhole) (arg3 : Memref sig .tc .vmem S2048x768 .f32) (harg3 : arg3.IsWhole) (arg4 : Memref sig .tc .vmem S8x2048 .f32) (harg4 : arg4.IsWhole) (arg5 : Memref sig .tc .vmem S8x768 .f32) (harg5 : arg5.IsWhole) (hc0 : cond0_0 i) (hc1 : ¬cond0_1 i)
    (x0 : Vec F S8x256x768 .f32) (x1 : Vec F S2048x768 .f32) :
    sout0_A_0 c i arg2 harg2 arg3 harg3 arg4 harg4 arg5 harg5 hc0 hc1 x0 x1 = k0_pay2 x0 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x768) hz2, View.readCov_unit_zero (S := S8x768) _ hz2]
  simp only [View.readAt_eq_ld, harg2.read_unread, View.ld_unit_zero (S := S8x256x768) hz3]

/-- Second token block: the scratch ends at what the first left, `acc`, plus this block's token sum. -/
theorem scratch_B (c : Dev nD) (i : grid0.Coords) (arg2 : Memref sig .tc .vmem S8x256x768 .f32) (harg2 : arg2.IsWhole) (arg3 : Memref sig .tc .vmem S2048x768 .f32) (harg3 : arg3.IsWhole) (arg4 : Memref sig .tc .vmem S8x2048 .f32) (harg4 : arg4.IsWhole) (arg5 : Memref sig .tc .vmem S8x768 .f32) (harg5 : arg5.IsWhole) (hc0 : ¬cond0_0 i) (hc1 : cond0_1 i)
    (x0 : Vec F S8x256x768 .f32) (x1 : Vec F S2048x768 .f32) (xs0 : Vec F S8x768 .f32) :
    sout0_B_0 c i arg2 harg2 arg3 harg3 arg4 harg4 arg5 harg5 hc0 hc1 x0 x1 xs0 = k0_pay2 x0 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S8x768) hz2]
  simp only [View.readAt_eq_ld, harg2.read_unread, harg5.read_unread, View.ld_unit_zero (S := S8x256x768) hz3,
    View.ld_unit_zero (S := S8x768) hz2]

/-- Second token block: the output block is the matrix product of the scaled scratch (as just updated) with the
    normalized projection. -/
theorem out_B (c : Dev nD) (i : grid0.Coords) (arg2 : Memref sig .tc .vmem S8x256x768 .f32) (harg2 : arg2.IsWhole) (arg3 : Memref sig .tc .vmem S2048x768 .f32) (harg3 : arg3.IsWhole) (arg4 : Memref sig .tc .vmem S8x2048 .f32) (harg4 : arg4.IsWhole) (arg5 : Memref sig .tc .vmem S8x768 .f32) (harg5 : arg5.IsWhole) (hc0 : ¬cond0_0 i) (hc1 : cond0_1 i)
    (x0 : Vec F S8x256x768 .f32) (x1 : Vec F S2048x768 .f32) (xs0 : Vec F S8x768 .f32) :
    out0_B_2 c i arg2 harg2 arg3 harg3 arg4 harg4 arg5 harg5 hc0 hc1 x0 x1 xs0 = k0_pay3 (k0_pay2 x0 xs0) x1 := by
  unfold out0_B_2
  rw [View.read_writes_eq_canon _ _ _ (cover0_B_2 c i arg2 harg2 arg3 harg3 arg4 harg4 arg5 harg5 hc0 hc1 x0 x1 xs0)]
  unfold kernelRun0_B
  dsimp only
  sl_unfold_words
  rw [View.canon_unit_zero (S := S8x2048) hz2, View.readCov_unit_zero (S := S8x768) _ hz2]
  simp only [View.readAt_eq_ld, harg2.read_unread, harg3.read_unread, harg5.read_unread,
    View.ld_unit_zero (S := S8x256x768) hz3, View.ld_unit_zero (S := S8x768) hz2, View.ld_unit_zero (S := S2048x768) hz2]

end Cert.KernelIdeal.Blocks
end
-- ==== Proof.LibKeepDims.lean ====
/-
  Keep-dimension layout steps read at coordinates: a matrix [a,b] cast to [a,b,1] and that broadcast along a new last
  axis to [a,b,c]; a vector [a] cast to a column [a,1] and the column broadcast over the columns of [a,b]. Each reads its
  operand at the same leading coordinates (the unit axis at 0): the cast keeps the row-major position, the broadcast
  repeats along the stretched axis.
-/
import Idealize.ShloMosaic.Lib.Pipeline.Value
import Idealize.ShloMosaic.Lib.ValueIdx
import Idealize.ShloMosaic.Lib.ValueLayout

namespace Cert.CosineMean.Layout

open Idealize.ShloMosaic Idealize.ShloMosaic.ValueIdx

variable {α : Type}

/-- An [a,b] array cast to [a,b,1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu]; omega)

/-- An [a,b,1] array broadcast to [a,b,c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A vector [a] cast to a column [a,1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu]; omega)

/-- A column [a,1] broadcast to [a,b] reads, at (i, j), the operand at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.CosineMean.Layout
-- ==== Proof.Payload.lean ====
/-
  The three stored values of the fused kernel's body, read at coordinates over the extended reals.

    the zeroed scratch                     (b, d) ↦ 0
    the scratch update   x, acc            (b, d) ↦ acc(b, d) + Σ_{s<256} unit(x(b, s, ·)) d
    the output block     a, p              (b, o) ↦ Σ_d (a(b, d) · 1/512) · unit(p(o, ·)) d

  where `unit` divides a row by its clamped Euclidean norm (Spec.lean). The reductions are sums over one axis; the
  keep-dimension casts and broadcasts carry a row's norm to every entry of the row (LibKeepDims.lean); a change of float format
  is the identity on the extended reals; and the matrix product into a zero accumulator is the plain sum over the
  contracted axis.
-/
import proofs.«167580_j25778393711209_2_alg».proof.Proof.Gen.KernelIdeal.Skeleton
import proofs.«167580_j25778393711209_2_alg».proof.Proof.Spec
import proofs.«167580_j25778393711209_2_alg».proof.Proof.LibKeepDims
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx
open Cert.CosineMean Cert.CosineMean.Layout

/-- Summing the squares of a [8,256,768] block along its last axis, at (b, s). -/
theorem sumsq3_apply (x : FVec Ideal S8x256x768 .f32) (b : Fin 8) (s : Fin 256) :
    multiReduction .add [2] S8x256 (mulf x x) 0x00000000#32 reduces_S8x256x768_S8x256 (.inl rfl) rfl (ix2 b s)
      = ∑ k : Fin 768, x (ix3 b s k) * x (ix3 b s k) := by
  refine (Ideal.multiReduction_add_single (mulf x x) 0x00000000#32 reduces_S8x256x768_S8x256 (.inl rfl) rfl (ix2 b s)).trans ?_
  refine Finset.sum_congr rfl fun k _ => ?_
  have e : reduces_S8x256x768_S8x256.lift (ix2 b s) k = ix3 b s k :=
    funext fun a => Fin.ext (by match a with | ⟨0, _⟩ => rfl | ⟨1, _⟩ => rfl | ⟨2, _⟩ => rfl)
  rw [e]; rfl

/-- Summing a [8,256,768] block along its middle axis, at (b, d). -/
theorem sumrows3_apply (y : FVec Ideal S8x256x768 .f32) (b : Fin 8) (d : Fin 768) :
    multiReduction .add [1] S8x768 y 0x00000000#32 reduces_S8x256x768_S8x768 (.inl rfl) rfl (ix2 b d)
      = ∑ s : Fin 256, y (ix3 b s d) := by
  refine (Ideal.multiReduction_add_single y 0x00000000#32 reduces_S8x256x768_S8x768 (.inl rfl) rfl (ix2 b d)).trans ?_
  refine Finset.sum_congr rfl fun s _ => ?_
  have e : reduces_S8x256x768_S8x768.lift (ix2 b d) s = ix3 b s d :=
    funext fun a => Fin.ext (by match a with | ⟨0, _⟩ => rfl | ⟨1, _⟩ => rfl | ⟨2, _⟩ => rfl)
  exact congrArg y e

/-- The clamped norms of the block's token rows, kept with a unit last axis, at (b, s, ·). -/
theorem norm3_apply (x : FVec Ideal S8x256x768 .f32) (b : Fin 8) (s : Fin 256) (u : Fin 1) :
    maximumf (sqrt (shapeCast S8x256x1 (multiReduction .add [2] S8x256 (mulf x x) 0x00000000#32 reduces_S8x256x768_S8x256 (.inl rfl) rfl)
        shapeCasts_S8x256_S8x256x1)) (broadcast S8x256x1 (Scalar.ofBits .f32 0x322BCC77#32)) (ix3 b s u)
      = nrm (fun k => x (ix3 b s k)) := by
  have h1 := shapeCast_ab_ab1_apply (multiReduction .add [2] S8x256 (mulf x x) 0x00000000#32 reduces_S8x256x768_S8x256 (.inl rfl) rfl)
    shapeCasts_S8x256_S8x256x1 b s u
  unfold nrm
  exact congrArg (fun z => max (Ideal.sqrt z) (Ideal.ofBits .f32 0x322BCC77#32)) (h1.trans (sumsq3_apply x b s))

/-- THE SCRATCH UPDATE at (b, d): what the scratch held plus the sum over the block's 256 tokens of the unit token rows. -/
theorem pay2_apply (x : Vec Ideal S8x256x768 .f32) (acc : Vec Ideal S8x768 .f32) (b : Fin 8) (d : Fin 768) :
    k0_pay2 (F := Ideal) x acc (ix2 b d) = acc (ix2 b d) + ∑ s : Fin 256, unit (fun k => x (ix3 b s k)) d := by
  unfold k0_pay2
  refine (congrFun (shapeCast_self _ shapeCasts_S8x768_S8x768) (ix2 b d)).trans ?_
  refine congrArg (acc (ix2 b d) + ·) ((sumrows3_apply _ b d).trans (Finset.sum_congr rfl fun s _ => ?_))
  unfold unit
  refine congrArg (Ideal.div (x (ix3 b s d))) ?_
  exact (broadcastTo_ab1_abc_apply _ broadcasts_S8x256x1_S8x256x768 b s d).trans (norm3_apply x b s 0)

/-- The zeroed scratch reads 0 everywhere. -/
theorem pay1_apply (j : S8x768.Idx) : k0_pay1 (F := Ideal) j = 0 := by
  unfold k0_pay1
  refine (congrFun (shapeCast_self _ shapeCasts_S8x768_S8x768) j).trans ?_
  exact Ideal.ofBits_zero_f32

/-- Summing the squares of the projection's rows, at o. -/
theorem sumsq2_apply (p : FVec Ideal S2048x768 .f32) (o : Fin 2048) :
    multiReduction .add [1] S2048 (mulf p p) 0x00000000#32 reduces_S2048x768_S2048 (.inl rfl) rfl (ix1 o)
      = ∑ k : Fin 768, p (ix2 o k) * p (ix2 o k) := by
  refine (Ideal.multiReduction_add_single (mulf p p) 0x00000000#32 reduces_S2048x768_S2048 (.inl rfl) rfl (ix1 o)).trans ?_
  refine Finset.sum_congr rfl fun k _ => ?_
  have e : reduces_S2048x768_S2048.lift (ix1 o) k = ix2 o k :=
    funext fun a => Fin.ext (by match a with | ⟨0, _⟩ => rfl | ⟨1, _⟩ => rfl)
  rw [e]; rfl

/-- The clamped norms of the projection's rows, as a column, at (o, ·). -/
theorem norm2_apply (p : FVec Ideal S2048x768 .f32) (o : Fin 2048) (u : Fin 1) :
    maximumf (sqrt (shapeCast S2048x1 (multiReduction .add [1] S2048 (mulf p p) 0x00000000#32 reduces_S2048x768_S2048 (.inl rfl) rfl)
        shapeCasts_S2048_S2048x1)) (broadcast S2048x1 (Scalar.ofBits .f32 0x322BCC77#32)) (ix2 o u)
      = nrm (fun k => p (ix2 o k)) := by
  have h1 := shapeCast_a_a1_apply (multiReduction .add [1] S2048 (mulf p p) 0x00000000#32 reduces_S2048x768_S2048 (.inl rfl) rfl)
    shapeCasts_S2048_S2048x1 o u
  unfold nrm
  exact congrArg (fun z => max (Ideal.sqrt z) (Ideal.ofBits .f32 0x322BCC77#32)) (h1.trans (sumsq2_apply p o))

/-- The matrix product's operand indices: output (b, o) and contraction coordinate k read the left operand at (b, k) and
    the right at (o, k). -/
theorem lhs_0 (i : S8x2048.Idx) (q : dot_S8x768_S2048x768_S8x2048_1_1_0_0_n_n.contr.Idx) :
    (dot_S8x768_S2048x768_S8x2048_1_1_0_0_n_n.lhsIdx i q 0).val = (i 0).val := by
  unfold DotDims.lhsIdx
  rw [dif_neg (show ¬(0 : Fin S8x768.rank) ∈ dot_S8x768_S2048x768_S8x2048_1_1_0_0_n_n.lhsBatch by decide),
    dif_pos (show (0 : Fin S8x768.rank) ∈ dot_S8x768_S2048x768_S8x2048_1_1_0_0_n_n.lhsNonContracting by decide)]
  rfl
theorem lhs_1 (i : S8x2048.Idx) (q : dot_S8x768_S2048x768_S8x2048_1_1_0_0_n_n.contr.Idx) :
    (dot_S8x768_S2048x768_S8x2048_1_1_0_0_n_n.lhsIdx i q 1).val = (q ⟨0, by decide⟩).val :=
  dot_S8x768_S2048x768_S8x2048_1_1_0_0_n_n.lhsIdx_val_of_single rfl i q
theorem rhs_0 (i : S8x2048.Idx) (q : dot_S8x768_S2048x768_S8x2048_1_1_0_0_n_n.contr.Idx) :
    (dot_S8x768_S2048x768_S8x2048_1_1_0_0_n_n.rhsIdx i q 0).val = (i 1).val := by
  unfold DotDims.rhsIdx
  rw [dif_neg (show ¬(0 : Fin S2048x768.rank) ∈ dot_S8x768_S2048x768_S8x2048_1_1_0_0_n_n.rhsBatch by decide),
    dif_pos (show (0 : Fin S2048x768.rank) ∈ dot_S8x768_S2048x768_S8x2048_1_1_0_0_n_n.rhsNonContracting by decide)]
  rfl
theorem rhs_1 (i : S8x2048.Idx) (q : dot_S8x768_S2048x768_S8x2048_1_1_0_0_n_n.contr.Idx) :
    (dot_S8x768_S2048x768_S8x2048_1_1_0_0_n_n.rhsIdx i q 1).val = (q ⟨0, by decide⟩).val :=
  dot_S8x768_S2048x768_S8x2048_1_1_0_0_n_n.rhsIdx_val_of_single rfl i q

/-- THE OUTPUT BLOCK at (b, o): the dot product over the 768 features of the scaled scratch row with the unit projection row. -/
theorem pay3_apply (a : Vec Ideal S8x768 .f32) (p : Vec Ideal S2048x768 .f32) (b : Fin 8) (o : Fin 2048) :
    k0_pay3 (F := Ideal) a p (ix2 b o)
      = ∑ d : Fin 768, a (ix2 b d) * Ideal.ofBits .f32 0x3B000000#32 * unit (fun k => p (ix2 o k)) d := by
  unfold k0_pay3
  refine (Ideal.matmul_constant_zero_apply dot_S8x768_S2048x768_S8x2048_1_1_0_0_n_n none _ _ (ix2 b o)).trans ?_
  rw [← Equiv.sum_comp (ValueIdx.contrEquiv1 dot_S8x768_S2048x768_S8x2048_1_1_0_0_n_n 768 rfl rfl).symm]
  refine Finset.sum_congr rfl fun k _ => ?_
  have hk := ValueIdx.contrEquiv1_symm_val dot_S8x768_S2048x768_S8x2048_1_1_0_0_n_n 768 rfl rfl k
  have el : dot_S8x768_S2048x768_S8x2048_1_1_0_0_n_n.lhsIdx (ix2 b o)
      ((ValueIdx.contrEquiv1 dot_S8x768_S2048x768_S8x2048_1_1_0_0_n_n 768 rfl rfl).symm k) = ix2 b k :=
    funext fun ax => Fin.ext (by
      match ax with
      | ⟨0, _⟩ => exact lhs_0 _ _
      | ⟨1, _⟩ => exact (lhs_1 _ _).trans hk)
  have er : dot_S8x768_S2048x768_S8x2048_1_1_0_0_n_n.rhsIdx (ix2 b o)
      ((ValueIdx.contrEquiv1 dot_S8x768_S2048x768_S8x2048_1_1_0_0_n_n 768 rfl rfl).symm k) = ix2 o k :=
    funext fun ax => Fin.ext (by
      match ax with
      | ⟨0, _⟩ => exact rhs_0 _ _
      | ⟨1, _⟩ => exact (rhs_1 _ _).trans hk)
  rw [el, er]
  unfold unit
  refine congrArg (a (ix2 b k) * Ideal.ofBits .f32 0x3B000000#32 * ·) ?_
  refine congrArg (Ideal.div (p (ix2 o k))) ?_
  exact (broadcastTo_a1_ab_apply _ broadcasts_S2048x1_S2048x768 o k).trans (norm2_apply p o 0)

end Cert.KernelIdeal.Payload

end
-- ==== Proof.KernelValue.lean ====
/-
  The kernel's result array is the mean cosine array, when every input entry is a real number.

  Output block (bi, 0) — rows 8·bi … 8·bi+7 of the result — is written back once, after the second of the two grid points
  that share it. There the scratch holds 0 + (sum of the unit token rows over tokens 0…255) + (the same over tokens
  256…511), because the point before left the first two terms in it; the body scales it by 1/512 and takes dot products
  with the unit projection rows. A token block's row (b, s) at grid point t is row (8·⌊t/2⌋ + b, 256·(t mod 2) + s) of the
  token array, and the projection's one block is the whole projection. So each written entry is the two-halves form
  `kerVal` of Spec.lean, which on real entries is the reference's `refVal`; the four written blocks tile the result.
-/
import proofs.«167580_j25778393711209_2_alg».proof.Proof.Gen.KernelIdeal.Value
import proofs.«167580_j25778393711209_2_alg».proof.Proof.Pieces
import proofs.«167580_j25778393711209_2_alg».proof.Proof.Payload
import proofs.«167580_j25778393711209_2_alg».proof.Proof.Spec
import Idealize.ShloMosaic.Lib.Pipeline.Value

noncomputable section

namespace Cert.KernelIdeal.RefValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.CosineMean Cert.KernelIdeal.Blocks Cert.KernelIdeal.Payload

variable (m : (ℓ : Loc nD τ sig) → Buf (Elt Ideal) ℓ) (ρ : Dev nD → PrngReg)

/-- The printed index maps over the eight grid points: the token window moves with (⌊t/2⌋, t mod 2), the projection's
    stays, the output's moves with ⌊t/2⌋. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = t.val / 2 ∧ win0_2.index t (1 : Fin 2) = 0 :=
  (by decide +kernel : ∀ t : Fin grid0.N, _)

/-- The output block stored at the second token block, over any blocks: entry (b, o) in the two-halves form. -/
theorem block_value (x0' x0 : Vec Ideal S8x256x768 .f32) (x1 : Vec Ideal S2048x768 .f32) (b : Fin 8) (o : Fin 2048) :
    k0_pay3 (F := Ideal) (k0_pay2 x0 (k0_pay2 x0' (k0_pay1 (F := Ideal)))) x1 (ix2 b o)
      = ∑ d : Fin 768, ((∑ s : Fin 256, unit (fun k => x0' (ix3 b s k)) d) + ∑ s : Fin 256, unit (fun k => x0 (ix3 b s k)) d)
          * Ideal.ofBits .f32 0x3B000000#32 * unit (fun k => x1 (ix2 o k)) d := by
  rw [pay3_apply]
  simp only [pay2_apply, pay1_apply, zero_add]

/-- A token block at a first-half point reads tokens 0…255 of its sentences. -/
theorem iblk0_even (c : Dev nD) (t : Fin cfg0.N) (ht : t.val % 2 = 0) (r : Fin 32) (b : Fin 8) (hr : r.val = 8 * (t.val / 2) + b.val)
    (s : Fin 256) (k : Fin 768) :
    iblk m c 0 t (ix3 b s k : S8x256x768.Idx) = V m c main_arg0 (ix3 (n1 := 512) r (Fin.castAdd 256 s) k) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 8 + 1 * b.val = r.val; rw [e0, hr]; omega
  | ⟨1, _⟩ => show win0_0.index t (1 : Fin 3) * 256 + 1 * s.val = s.val; rw [e1, ht]; omega
  | ⟨2, _⟩ => show win0_0.index t (2 : Fin 3) * 768 + 1 * k.val = k.val; rw [e2]; omega

/-- A token block at a second-half point reads tokens 256…511 of its sentences. -/
theorem iblk0_odd (c : Dev nD) (t : Fin cfg0.N) (ht : t.val % 2 = 1) (r : Fin 32) (b : Fin 8) (hr : r.val = 8 * (t.val / 2) + b.val)
    (s : Fin 256) (k : Fin 768) :
    iblk m c 0 t (ix3 b s k : S8x256x768.Idx) = V m c main_arg0 (ix3 (n1 := 512) r (Fin.natAdd 256 s) k) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 8 + 1 * b.val = r.val; rw [e0, hr]; omega
  | ⟨1, _⟩ => show win0_0.index t (1 : Fin 3) * 256 + 1 * s.val = 256 + s.val; rw [e1, ht]; omega
  | ⟨2, _⟩ => show win0_0.index t (2 : Fin 3) * 768 + 1 * k.val = k.val; rw [e2]; omega

/-- The projection's block is the projection. -/
theorem iblk1_apply (c : Dev nD) (t : Fin cfg0.N) (o : Fin 2048) (k : Fin 768) :
    iblk m c 1 t (ix2 o k : S2048x768.Idx) = V m c main_arg1 (ix2 o k) := by
  obtain ⟨-, -, -, e3, e4, -⟩ := idx_facts t
  unfold iblk
  rw [View.read_apply]
  show V m c main_arg1 _ = V m c main_arg1 _
  congr 1
  funext a
  apply Fin.ext
  match a with
  | ⟨0, _⟩ => show win0_1.index t (0 : Fin 2) * 2048 + 1 * o.val = o.val; rw [e3]; omega
  | ⟨1, _⟩ => show win0_1.index t (1 : Fin 2) * 768 + 1 * k.val = k.val; rw [e4]; omega

/-- Entry (b, o) of the output block at point t is entry (8·⌊t/2⌋ + b, o) of the result. -/
theorem emb2_apply (t : Fin cfg0.N) (r : Fin 32) (b : Fin 8) (hr : r.val = 8 * (t.val / 2) + b.val) (o : Fin 2048) :
    ((cfg0.win 2).blk t).view.emb (ix2 b o : S8x2048.Idx) = (ix2 r o : S32x2048.Idx) := by
  obtain ⟨-, -, -, -, -, e5, e6⟩ := idx_facts t
  funext a
  apply Fin.ext
  match a with
  | ⟨0, _⟩ => show win0_2.index t (0 : Fin 2) * 8 + 1 * b.val = r.val; rw [e5, hr]; omega
  | ⟨1, _⟩ => show win0_2.index t (1 : Fin 2) * 2048 + 1 * o.val = o.val; rw [e6]; omega

/-- An index of the result is in point t's output block iff each coordinate is in the block's range on its axis. -/
theorem mem_blk2 (t : Fin cfg0.N) (i : S32x2048.Idx) :
    i ∈ ((cfg0.win 2).blk t).view.set ↔ ∀ a : Fin 2, win0_2.index t a * S8x2048.size a ≤ (i a).val ∧ (i a).val < win0_2.index t a * S8x2048.size a + S8x2048.size a := by
  show i ∈ ((View.whole main_v0).slice (win0_2.rect t)).set ↔ _
  rw [View.set_slice_whole, Rect.mem_set_unit]
  exact Iff.rfl

/-- What the scratch holds after a first-half point: the zero block plus that point's token sum. -/
theorem prev_scratch (c : Dev nD) (t' : Fin cfg0.N) (h0' : t'.val % 2 = 0) (h1' : ¬t'.val % 2 = 1) :
    (outsAt0 m c t'.val t'.isLt).2 = k0_pay2 (iblk m c 0 t') (k0_pay1 (F := Ideal)) := by
  rw [outsAt0_A m c t' h0' h1']
  dsimp only
  exact scratch_A (F := Ideal) c (grid0.coords t') (ms0_0 t') (hs0_0 t') (ms0_1 t') (hs0_1 t') (ms0_2 t') (hs0_2 t') scM0_0
    (Memref.isWhole_whole _) ((hcond0_0 t').mpr h0') (fun h => h1' ((hcond0_1 t').mp h)) (iblk m c 0 t') (iblk m c 1 t')

/-- `outsAt0` depends on the point's number only. -/
theorem outsAt0_congr (c : Dev nD) (n n' : ℕ) (h : n < cfg0.N) (h' : n' < cfg0.N) (e : n = n') :
    outsAt0 m c n h = outsAt0 m c n' h' := by subst e; rfl

/-- What a second-half point t writes back, over the blocks of t and of the point t' before it. -/
theorem flushed_val (c : Dev nD) (t t' : Fin cfg0.N) (h0 : ¬t.val % 2 = 0) (h1 : t.val % 2 = 1) (htt : t'.val = t.val - 1) :
    (dats m 0 c).flushed 2 t = (cfg0.win 2).cut (grid0.coords t)
      (k0_pay3 (F := Ideal) (k0_pay2 (iblk m c 0 t) (k0_pay2 (iblk m c 0 t') (k0_pay1 (F := Ideal)))) (iblk m c 1 t)) := by
  have h0' : t'.val % 2 = 0 := by omega
  have h1' : ¬t'.val % 2 = 1 := by omega
  rw [flushed2_B m c t h0 h1,
    out_B (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2,
    outsAt0_congr m c (t.val - 1) t'.val (Nat.lt_of_le_of_lt (Nat.sub_le _ _) t.isLt) t'.isLt htt.symm,
    prev_scratch m c t' h0' h1']

/-- WHAT A WRITE-BACK WRITES: at a point that writes the output block back (the second token block of a sentence block),
    the block of the mean cosine array — given that the arguments' entries are real. -/
theorem flushed_eq (c : Dev nD)
    (hx : ∀ i, ∃ r : ℝ, V m c main_arg0 i = (r : EReal)) (hp : ∀ i, ∃ r : ℝ, V m c main_arg1 i = (r : EReal))
    (t : Fin cfg0.N) (hf : (cfg0.win 2).flush t = true) :
    (dats m 0 c).flushed 2 t = ((cfg0.win 2).blk t).view.read (Elt Ideal) (meanCos (V m c main_arg0) (V m c main_arg1)) := by
  have hN : cfg0.N = 8 := N_0
  have hlt := t.isLt
  have h1 : t.val % 2 = 1 := (flush0_2 t).mp hf
  have h0 : ¬t.val % 2 = 0 := by omega
  obtain ⟨t', htt⟩ : ∃ t' : Fin cfg0.N, t'.val = t.val - 1 := ⟨⟨t.val - 1, by omega⟩, rfl⟩
  have h0' : t'.val % 2 = 0 := by omega
  rw [flushed_val m c t t' h0 h1 htt]
  funext j
  obtain ⟨b, o, rfl⟩ : ∃ (b : Fin 8) (o : Fin 2048), j = ix2 b o := ⟨j 0, j 1, eq_ix2 j⟩
  obtain ⟨r, hr⟩ : ∃ r : Fin 32, r.val = 8 * (t.val / 2) + b.val := ⟨⟨8 * (t.val / 2) + b.val, by have := b.isLt; omega⟩, rfl⟩
  have hr' : r.val = 8 * (t'.val / 2) + b.val := by omega
  rw [View.read_apply, emb2_apply t r b hr o]
  refine (block_value _ _ _ b o).trans ?_
  simp only [iblk0_even m c t' h0' r b hr', iblk0_odd m c t h1 r b hr, iblk1_apply m c t o]
  exact ker_eq_ref (fun s k => V m c main_arg0 (ix3 r s k)) (fun k => V m c main_arg1 (ix2 o k)) (fun s k => hx _) (fun k => hp _)

/-- The four written blocks tile the result: row r of the result lies in the block written back at point 2·⌊r/8⌋ + 1. -/
theorem covered (i : S32x2048.Idx) :
    ∃ t : Fin cfg0.N, (cfg0.win 2).flush t = true ∧ i ∈ ((cfg0.win 2).blk t).view.set := by
  have hN : cfg0.N = 8 := N_0
  have hi0 : (i 0).val < 32 := (i 0).isLt
  have hi1 : (i 1).val < 2048 := (i 1).isLt
  obtain ⟨t0, ht0⟩ : ∃ t0 : Fin cfg0.N, t0.val = 2 * ((i 0).val / 8) + 1 := ⟨⟨2 * ((i 0).val / 8) + 1, by omega⟩, rfl⟩
  obtain ⟨-, -, -, -, -, e5, e6⟩ := idx_facts t0
  refine ⟨t0, (flush0_2 t0).mpr (by omega), ?_⟩
  rw [mem_blk2]
  intro a
  match a with
  | ⟨0, _⟩ =>
    show win0_2.index t0 (0 : Fin 2) * 8 ≤ (i 0).val ∧ (i 0).val < win0_2.index t0 (0 : Fin 2) * 8 + 8
    rw [e5]; omega
  | ⟨1, _⟩ =>
    show win0_2.index t0 (1 : Fin 2) * 2048 ≤ (i 1).val ∧ (i 1).val < win0_2.index t0 (1 : Fin 2) * 2048 + 2048
    rw [e6]; omega

/-- THE RESULT ARRAY after the run: the mean cosine array of the arguments. -/
theorem final (c : Dev nD)
    (hx : ∀ i, ∃ r : ℝ, V m c main_arg0 i = (r : EReal)) (hp : ∀ i, ∃ r : ℝ, V m c main_arg1 i = (r : EReal)) :
    (dats m 0 c).arrAt 2 cfg0.N = meanCos (V m c main_arg0) (V m c main_arg1) :=
  (dats m 0 c).arrAt_eq_of_cover 2 (meanCos (V m c main_arg0) (V m c main_arg1)) (fun t hf => flushed_eq m c hx hp t hf) covered

/-- The kernel's run, read: on real inputs every weakly fair execution ends with the result at the mean cosine array of the
    arguments and the arguments unchanged. -/
theorem run (hx : ∀ (c : Dev nD) i, ∃ r : ℝ, m ((c : Thread nD τ).loc main_arg0) i = (r : EReal))
    (hp : ∀ (c : Dev nD) i, ∃ r : ℝ, m ((c : Thread nD τ).loc main_arg1) i = (r : EReal)) :
    θ_run defs (onTc (τ := τ) (main (F := Ideal))) ⟨m, fun _ => 0, ρ⟩ fun r => ∀ c : Dev nD,
      r.2.mem ((c : Thread nD τ).loc main_v0) = meanCos (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hx c) (hp c)), (h c).2⟩) (Value.run_blocks m ρ)

end Cert.KernelIdeal.RefValue

end
-- ==== Proof.lean ====
/-
  The certificate's claims.

  The kernel computes, for each of 32 sentences and 2048 projection rows, the dot product of the MEAN of the sentence's
  512 unit-normalized token embeddings with the unit-normalized projection row; the reference computes the MEAN over the
  tokens of the 512 cosines. Over the extended reals, with every input entry a real number (the precondition), these are one
  array (Spec.lean `ker_eq_ref`: linearity of the dot product in its first argument; a norm clamped below by a positive ε
  never vanishes; 1/512 is an exact float): `meanCos` of the two arguments.

    frames      the two kernels' frame runs as the generator proves them; the reference's is its run with the result dropped.
    preserves   the ideal pass rewrote nothing.
    algebraic   the kernel's run ends with the result at `meanCos` of its arguments (KernelValue.lean, using that finite
                inputs are real, Finite.lean); the reference's run ends at the same function of arguments that agree
                (RefValue.lean).
-/
import proofs.«167580_j25778393711209_2_alg».proof.Defs
import proofs.«167580_j25778393711209_2_alg».proof.Proof.Gen.Kernel
import proofs.«167580_j25778393711209_2_alg».proof.Proof.Gen.Kernel.Skeleton
import proofs.«167580_j25778393711209_2_alg».proof.Proof.Gen.Kernel.Launch
import proofs.«167580_j25778393711209_2_alg».proof.Proof.Gen.Kernel.Points
import proofs.«167580_j25778393711209_2_alg».proof.Proof.Gen.Kernel.Frame
import proofs.«167580_j25778393711209_2_alg».proof.Proof.Gen.KernelIdeal
import proofs.«167580_j25778393711209_2_alg».proof.Proof.Gen.KernelIdeal.Skeleton
import proofs.«167580_j25778393711209_2_alg».proof.Proof.Gen.KernelIdeal.Launch
import proofs.«167580_j25778393711209_2_alg».proof.Proof.Gen.KernelIdeal.Points
import proofs.«167580_j25778393711209_2_alg».proof.Proof.Gen.KernelIdeal.Frame
import proofs.«167580_j25778393711209_2_alg».proof.Proof.Gen.ReferenceIdeal
import proofs.«167580_j25778393711209_2_alg».proof.Proof.Gen.Pre_finite_inputs
import proofs.«167580_j25778393711209_2_alg».proof.Proof.Gen.KernelIdeal.Value
import proofs.«167580_j25778393711209_2_alg».proof.Proof.Gen.ReferenceIdeal.Run
import proofs.«167580_j25778393711209_2_alg».proof.Proof.Gen.ReferenceIdeal.Read
import proofs.«167580_j25778393711209_2_alg».proof.Proof.Spec
import proofs.«167580_j25778393711209_2_alg».proof.Proof.Finite
import proofs.«167580_j25778393711209_2_alg».proof.Proof.RefValue
import proofs.«167580_j25778393711209_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at the mean cosine array of the (agreeing, finite) arguments. -/
theorem algebraic : Cert.algebraic_KernelIdeal_ReferenceIdeal := by
  intro m ρ m' ρ' hpre hagree
  have hfin := fun c => Cert.Pre_finite_inputs.Finite.real_of_pre _ _ (hpre c)
  refine ⟨fun c => Cert.CosineMean.meanCos (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RefValue.run m ρ (fun c => (hfin c).1) (fun c => (hfin c).2), ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v13_eq, Cert.ReferenceIdeal.RefValue.ref_eq_meanCos, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
